-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x41024 : Shape := ⟨2, ![4096, 41024]⟩
abbrev S41024x128 : Shape := ⟨2, ![41024, 128]⟩
abbrev S128 : Shape := ⟨1, ![128]⟩
abbrev S256x32 : Shape := ⟨2, ![256, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x41024 : S_.BroadcastsInDim S4096x41024 (![] : Fin 0 → Fin S4096x41024.rank)
  reducesTo_S4096x41024_S_d0_1 : S4096x41024.ReducesTo [0, 1] S_
  bcast_S_S41024x128 : S_.BroadcastsInDim S41024x128 (![] : Fin 0 → Fin S41024x128.rank)
  reducesTo_S41024x128_S_d0_1 : S41024x128.ReducesTo [0, 1] S_
  bcast_S_S128 : S_.BroadcastsInDim S128 (![] : Fin 0 → Fin S128.rank)
  reducesTo_S128_S_d0 : S128.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32 .f32) (main_arg8 : FVec F S32x32 .f32) (main_arg9 : FVec F S32 .f32) (main_arg10 : FVec F S32x1 .f32) (main_arg11 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_arg11 main_v48 main_v49 main_v50

def fn_part1 {F : FTy → Type} [FloatOps F] (main_arg4 : FVec F S41024x128 .f32) (main_arg5 : FVec F S128 .f32) (main_arg6 : FVec F S256x32 .f32) (main_arg7 : FVec F S32 .f32) (main_arg8 : FVec F S32x32 .f32) (main_arg9 : FVec F S32 .f32) (main_arg10 : FVec F S32x1 .f32) (main_arg11 : FVec F S1 .f32) (main_v13 : IVec S_ 1) (main_v16 : IVec S4096x41024 1) : IVec S_ 1 :=
  let main_c_5 : IVec S_ 1 := constantI S_ 1 1#1
  let main_v17 : IVec S_ 1 := (fun x v => Host.reduce IntOp.andi x v reducesTo_S4096x41024_S_d0_1 h_S_) main_v16 main_c_5
  let main_v18 : IVec S_ 1 := andi main_v13 main_v17
  let main_v19 : FVec F S41024x128 .f32 := Host.absf main_arg4
  let main_cst_6 : FVec F S_ .f32 := constant S_ .f32 0x7F800000#32
  let main_v20 : FVec F S41024x128 .f32 := broadcastInDim S41024x128 ![] bcast_S_S41024x128 main_cst_6
  let main_v21 : IVec S41024x128 1 := cmpf .olt main_v19 main_v20
  let main_c_7 : IVec S_ 1 := constantI S_ 1 1#1
  let main_v22 : IVec S_ 1 := (fun x v => Host.reduce IntOp.andi x v reducesTo_S41024x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x32 .f32 := Host.absf main_arg6
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1 .f32) (main_arg1 : FVec F S4096x1 .f32) (main_arg2 : FVec F S4096x41024 .f32) (main_arg3 : FVec F S4096x41024 .f32) (main_arg4 : FVec F S41024x128 .f32) (main_arg5 : FVec F S128 .f32) (main_arg6 : FVec F S256x32 .f32) (main_arg7 : FVec F S32 .f32) (main_arg8 : FVec F S32x32 .f32) (main_arg9 : FVec F S32 .f32) (main_arg10 : FVec F S32x1 .f32) (main_arg11 : FVec F S1 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x41024 .f32 := Host.absf main_arg2
  let main_cst_2 : FVec F S_ .f32 := constant S_ .f32 0x7F800000#32
  let main_v10 : FVec F S4096x41024 .f32 := broadcastInDim S4096x41024 ![] bcast_S_S4096x41024 main_cst_2
  let main_v11 : IVec S4096x41024 1 := cmpf .olt main_v9 main_v10
  let main_c_3 : IVec S_ 1 := constantI S_ 1 1#1
  let main_v12 : IVec S_ 1 := (fun x v => Host.reduce IntOp.andi x v reducesTo_S4096x41024_S_d0_1 h_S_) main_v11 main_c_3
  let main_v13 : IVec S_ 1 := andi main_v8 main_v12
  let main_v14 : FVec F S4096x41024 .f32 := Host.absf main_arg3
  let main_cst_4 : FVec F S_ .f32 := constant S_ .f32 0x7F800000#32
  let main_v15 : FVec F S4096x41024 .f32 := broadcastInDim S4096x41024 ![] bcast_S_S4096x41024 main_cst_4
  let main_v16 : IVec S4096x41024 1 := cmpf .olt main_v14 main_v15
  fn_part1 (F := F) main_arg4 main_arg5 main_arg6 main_arg7 main_arg8 main_arg9 main_arg10 main_arg11 main_v13 main_v16
-- ==== Kernel.lean ====
abbrev S4096x1 : Shape := ⟨2, ![4096, 1]⟩
abbrev S4096x41024 : Shape := ⟨2, ![4096, 41024]⟩
abbrev S41024x128 : Shape := ⟨2, ![41024, 128]⟩
abbrev S128 : Shape := ⟨1, ![128]⟩
abbrev S256x32 : Shape := ⟨2, ![256, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x128 : Shape := ⟨2, ![1, 128]⟩
abbrev S1x32 : Shape := ⟨2, ![1, 32]⟩
abbrev S1x1 : Shape := ⟨2, ![1, 1]⟩
abbrev S64x41024 : Shape := ⟨2, ![64, 41024]⟩
abbrev S64x1 : Shape := ⟨2, ![64, 1]⟩
abbrev S128x41024 : Shape := ⟨2, ![128, 41024]⟩
abbrev S128x128 : Shape := ⟨2, ![128, 128]⟩
abbrev S64x128 : Shape := ⟨2, ![64, 128]⟩
abbrev S64x256 : Shape := ⟨2, ![64, 256]⟩
abbrev S64x32 : Shape := ⟨2, ![64, 32]⟩

abbrev nBuf : Space → Nat
  | .hbm => 18
  | .vmem => 18
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x41024, .f32⟩
  | .hbm, ⟨3, _⟩ => ⟨S4096x41024, .f32⟩
  | .hbm, ⟨4, _⟩ => ⟨S41024x128, .f32⟩
  | .hbm, ⟨5, _⟩ => ⟨S128, .f32⟩
  | .hbm, ⟨6, _⟩ => ⟨S256x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S41024x128, .bf16⟩
  | .hbm, ⟨13, _⟩ => ⟨S1x128, .f32⟩
  | .hbm, ⟨14, _⟩ => ⟨S1x32, .f32⟩
  | .hbm, ⟨15, _⟩ => ⟨S1x32, .f32⟩
  | .hbm, ⟨16, _⟩ => ⟨S1x1, .f32⟩
  | .hbm, ⟨17, _⟩ => ⟨S4096x1, .f32⟩
  | .local _ .vmem, ⟨0, _⟩ => ⟨S64x41024, .f32⟩
  | .local _ .vmem, ⟨1, _⟩ => ⟨S64x41024, .f32⟩
  | .local _ .vmem, ⟨2, _⟩ => ⟨S64x41024, .f32⟩
  | .local _ .vmem, ⟨3, _⟩ => ⟨S64x41024, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S41024x128, .bf16⟩
  | .local _ .vmem, ⟨9, _⟩ => ⟨S1x128, .f32⟩
  | .local _ .vmem, ⟨10, _⟩ => ⟨S256x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S64x1, .f32⟩
  | .local _ .vmem, ⟨17, _⟩ => ⟨S64x1, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x41024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x41024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S41024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S128_S1x128 : S128.ShapeCasts S1x128
  shapeCasts_S32_S1x32 : S32.ShapeCasts S1x32
  shapeCasts_S1_S1x1 : S1.ShapeCasts S1x1
  inb_S64x41024_S64x41024_0_0 : ∀ a, (![0, 0] : Fin 2 → Nat) a + S64x41024.size a ≤ S64x41024.size a
  h_S64x41024 : 0 < S64x41024.numel
  inb_S41024x128_S41024x128_0_0 : ∀ a, (![0, 0] : Fin 2 → Nat) a + S41024x128.size a ≤ S41024x128.size a
  h_S41024x128 : 0 < S41024x128.numel
  shapeCasts_S41024x128_S41024x128 : S41024x128.ShapeCasts S41024x128
  concatenates_S64x41024_S64x41024_S128x41024_d0 : Shape.Concatenates [S64x41024, S64x41024] S128x41024 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S128x128_o0_0_S64x128 : S128x128.Slices ![0, 0] S64x128
  broadcasts_S1x128_S64x128 : S1x128.Broadcasts S64x128
  slices_S128x128_o64_0_S64x128 : S128x128.Slices ![64, 0] S64x128
  inb_S64x1_S64x1_0_0 : ∀ a, (![0, 0] : Fin 2 → Nat) a + S64x1.size a ≤ S64x1.size a
  h_S64x1 : 0 < S64x1.numel
  broadcasts_S64x1_S64x128 : S64x1.Broadcasts S64x128
  concatenates_S64x128_S64x128_S64x256_d1 : Shape.Concatenates [S64x128, S64x128] S64x256 1
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S128x41024_S41024x128_S128x128_1_0_0_1_n_n_wf : DotDims.WF S128x41024 S41024x128 S128x128 [1] [0] [0] [1] [] []
  dot_S64x256_S256x32_S64x32_1_0_0_1_n_n_wf : DotDims.WF S64x256 S256x32 S64x32 [1] [0] [0] [1] [] []
  dot_S64x32_S32x32_S64x32_1_0_0_1_n_n_wf : DotDims.WF S64x32 S32x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x41024.size a ≤ S4096x41024.size a
  hwx0_0 : ∀ i : grid0.Coords, EltTy.bits .f32 = 32 ∨ (Rect.block (s := S4096x41024) S64x41024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x41024.size a ≤ S4096x41024.size a
  hwx0_1 : ∀ i : grid0.Coords, EltTy.bits .f32 = 32 ∨ (Rect.block (s := S4096x41024) S64x41024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S4096x1.size a
  hwx0_3 : ∀ i : grid0.Coords, EltTy.bits .f32 = 32 ∨ (Rect.block (s := S4096x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S41024x128.size a ≤ S41024x128.size a
  hwx0_4 : ∀ i : grid0.Coords, EltTy.bits .bf16 = 32 ∨ (Rect.block (s := S41024x128) S41024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .f32 = 32 ∨ (Rect.block (s := S256x32) S256x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .f32 = 32 ∨ (Rect.block (s := S32x1) S32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S4096x1.size a
  hwx0_12 : ∀ i : grid0.Coords, EltTy.bits .f32 = 32 ∨ (Rect.block (s := S4096x1) S64x1.size (cc0_transform_12 i) (hinb0_12 i)).WholeWords (EltTy.packing .f32)

variable [Facts₀]

def dot_S128x41024_S41024x128_S128x128_1_0_0_1_n_n : DotDims S128x41024 S41024x128 S128x128 where
  lhsContracting := [1]
  rhsContracting := [0]
  lhsNonContracting := [0]
  rhsNonContracting := [1]
  lhsBatch := []
  rhsBatch := []
  wf := dot_S128x41024_S41024x128_S128x128_1_0_0_1_n_n_wf
def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf
def dot_S64x32_S32x32_S64x32_1_0_0_1_n_n : DotDims S64x32 S32x32 S64x32 where
  lhsContracting := [1]
  rhsContracting := [0]
  lhsNonContracting := [0]
  rhsNonContracting := [1]
  lhsBatch := []
  rhsBatch := []
  wf := dot_S64x32_S32x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg2) S64x41024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x41024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S41024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S64x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x1 : Shape := ⟨2, ![4096, 1]⟩
abbrev S4096x41024 : Shape := ⟨2, ![4096, 41024]⟩
abbrev S41024x128 : Shape := ⟨2, ![41024, 128]⟩
abbrev S128 : Shape := ⟨1, ![128]⟩
abbrev S256x32 : Shape := ⟨2, ![256, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S4096x128 : Shape := ⟨2, ![4096, 128]⟩
abbrev S1x128 : Shape := ⟨2, ![1, 128]⟩
abbrev S4096x256 : Shape := ⟨2, ![4096, 256]⟩
abbrev S_ : Shape := ⟨0, ![]⟩
abbrev S4096x32 : Shape := ⟨2, ![4096, 32]⟩
abbrev S1x32 : Shape := ⟨2, ![1, 32]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x41024, .f32⟩
  | .hbm, ⟨3, _⟩ => ⟨S4096x41024, .f32⟩
  | .hbm, ⟨4, _⟩ => ⟨S41024x128, .f32⟩
  | .hbm, ⟨5, _⟩ => ⟨S128, .f32⟩
  | .hbm, ⟨6, _⟩ => ⟨S256x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S4096x128, .f32⟩
  | .hbm, ⟨13, _⟩ => ⟨S1x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S1x128, .f32⟩
  | .hbm, ⟨18, _⟩ => ⟨S4096x128, .f32⟩
  | .hbm, ⟨19, _⟩ => ⟨S4096x128, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S4096x256, .f32⟩
  | .hbm, ⟨34, _⟩ => ⟨S4096x256, .f32⟩
  | .hbm, ⟨35, _⟩ => ⟨S4096x32, .f32⟩
  | .hbm, ⟨36, _⟩ => ⟨S1x32, .f32⟩
  | .hbm, ⟨37, _⟩ => ⟨S4096x32, .f32⟩
  | .hbm, ⟨38, _⟩ => ⟨S4096x32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x32, .f32⟩
  | .hbm, ⟨43, _⟩ => ⟨S4096x32, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S1x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4096x32, .f32⟩
  | .hbm, ⟨55, _⟩ => ⟨S4096x32, .f32⟩
  | .hbm, ⟨56, _⟩ => ⟨S_, .f32⟩
  | .hbm, ⟨57, _⟩ => ⟨S4096x32, .f32⟩
  | .hbm, ⟨58, _⟩ => ⟨S4096x32, .f32⟩
  | .hbm, ⟨59, _⟩ => ⟨S4096x1, .f32⟩
  | .hbm, ⟨60, _⟩ => ⟨S1x1, .f32⟩
  | .hbm, ⟨61, _⟩ => ⟨S4096x1, .f32⟩
  | .hbm, ⟨62, _⟩ => ⟨S4096x1, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  concatenates_S4096x128_S4096x128_S4096x256_d1 : Shape.Concatenates [S4096x128, S4096x128] S4096x256 1
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41024_S41024x128_S4096x128_1_0_0_1_n_n_wf : DotDims.WF S4096x41024 S41024x128 S4096x128 [1] [0] [0] [1] [] []
  dot_S4096x256_S256x32_S4096x32_1_0_0_1_n_n_wf : DotDims.WF S4096x256 S256x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41024_S41024x128_S4096x128_1_0_0_1_n_n : DotDims S4096x41024 S41024x128 S4096x128 where
  lhsContracting := [1]
  rhsContracting := [0]
  lhsNonContracting := [0]
  rhsNonContracting := [1]
  lhsBatch := []
  rhsBatch := []
  wf := dot_S4096x41024_S41024x128_S4096x128_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Spec.lean ====
/-
  The function both programs compute, one batch row at a time, on the extended reals.

  A row of the batch carries two input vectors `a`, `b` (41024 entries each) and two scalar
  weights `u`, `v`.  Both input vectors go through ONE affine map into 128 accumulators
  (`affine a Wft bft`, `affine b Wft bft`); the 256 first-layer inputs are the two accumulator vectors laid side by
  side, once in the order (a, b) weighted by `u` and once in the order (b, a) weighted by `v`, added (`mix`);
  then three affine layers 256 → 32 → 32 → 1 follow, each input clipped to the interval between the two
  literal bounds (`clip`).  `rowOut` is that composition for one row; `G` applies it to every row of the batch
  arrays.  Nothing here depends on a tiling, on an order of summation or on a number format: a sum is a
  `Finset` sum over the contracted axis, and the clip bounds stay the binary words both programs print.
-/
import Idealize.ShloMosaic.PureOps.Ideal
import Idealize.ShloMosaic.Lib.ValueIdx

noncomputable section

namespace Cert.Net

open Idealize.ShloMosaic Idealize.ShloMosaic.ValueIdx

/-- The lower clip bound, the word of `0.0`. -/
abbrev lo : EReal := Ideal.ofBits .f32 0x00000000#32
/-- The upper clip bound, the word of `1.0`. -/
abbrev hi : EReal := Ideal.ofBits .f32 0x3F800000#32

/-- Clipping: first from below against `lo`, then from above against `hi`, in that order. -/
def clip (x : EReal) : EReal := min hi (max lo x)

/-- Output `j` of an affine layer: the inner product of the input with column `j` of the weights, plus the bias. -/
def affine {n m : Nat} (x : Fin n → EReal) (W : Fin n → Fin m → EReal) (b : Fin m → EReal) (j : Fin m) : EReal :=
  (∑ k : Fin n, x k * W k j) + b j

/-- The 256 first-layer inputs from the two accumulator vectors `w`, `b`: position `c < 128` holds
    `u · w c + v · b c`, position `128 + c` holds `u · b c + v · w c`. -/
def mix (u v : EReal) (w b : Fin 128 → EReal) (c : Fin 256) : EReal :=
  if h : c.val < 128 then u * w ⟨c.val, h⟩ + v * b ⟨c.val, h⟩
  else u * b ⟨c.val - 128, by have := c.isLt; omega⟩ + v * w ⟨c.val - 128, by have := c.isLt; omega⟩

/-- The network's output for one row. -/
def rowOut (a b : Fin 41024 → EReal) (u v : EReal) (Wft : Fin 41024 → Fin 128 → EReal) (bft : Fin 128 → EReal)
    (W1 : Fin 256 → Fin 32 → EReal) (b1 : Fin 32 → EReal) (W2 : Fin 32 → Fin 32 → EReal) (b2 : Fin 32 → EReal)
    (Wo : Fin 32 → Fin 1 → EReal) (bo : Fin 1 → EReal) : EReal :=
  affine (fun k => clip (affine (fun k => clip (affine (fun c => clip (mix u v (affine a Wft bft) (affine b Wft bft) c)) W1 b1 k)) W2 b2 k)) Wo bo 0

/-- The whole result array: row `i 0` of the batch through `rowOut`, the parameter arrays read by coordinates. -/
def G (X0 X1 : (⟨2, ![4096, 1]⟩ : Shape).Idx → EReal) (X2 X3 : (⟨2, ![4096, 41024]⟩ : Shape).Idx → EReal)
    (X4 : (⟨2, ![41024, 128]⟩ : Shape).Idx → EReal) (X5 : (⟨1, ![128]⟩ : Shape).Idx → EReal)
    (X6 : (⟨2, ![256, 32]⟩ : Shape).Idx → EReal) (X7 : (⟨1, ![32]⟩ : Shape).Idx → EReal)
    (X8 : (⟨2, ![32, 32]⟩ : Shape).Idx → EReal) (X9 : (⟨1, ![32]⟩ : Shape).Idx → EReal)
    (X10 : (⟨2, ![32, 1]⟩ : Shape).Idx → EReal) (X11 : (⟨1, ![1]⟩ : Shape).Idx → EReal) :
    (⟨2, ![4096, 1]⟩ : Shape).Idx → EReal :=
  fun i => rowOut (fun k => X2 (ix2 (i 0) k)) (fun k => X3 (ix2 (i 0) k)) (X0 (ix2 (i 0) (0 : Fin 1))) (X1 (ix2 (i 0) (0 : Fin 1)))
    (fun k j => X4 (ix2 k j)) (fun j => X5 (ix1 j)) (fun k j => X6 (ix2 k j)) (fun j => X7 (ix1 j))
    (fun k j => X8 (ix2 k j)) (fun j => X9 (ix1 j)) (fun k j => X10 (ix2 k j)) (fun j => X11 (ix1 j))

end Cert.Net

end
-- ==== Proof.Ops.lean ====
/-
  Layout operations and the matrix product read at an index given by its two coordinates.

  Each lemma says which ONE entry of the operand an entry of the result is: a concatenation of two matrices along
  the rows or along the columns reads the first piece below the first extent and the second piece past it; a
  column vector broadcast along the columns reads the entry of its row; and a plain matrix product into a zero
  accumulator is, entry by entry, the sum over the contracted axis of the products of the two operands' entries.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Net.Ops

open Idealize.ShloMosaic Idealize.ShloMosaic.ValueIdx

variable {α : Type}

/-- Two matrices stacked along the rows: a row below the first extent is a row of the first piece. -/
theorem concat_rows_left {A B T C : Nat} (x₁ : (⟨2, ![A, C]⟩ : Shape).Idx → α) (x₂ : (⟨2, ![B, C]⟩ : Shape).Idx → α)
    (h : Shape.Concatenates [(⟨2, ![A, C]⟩ : Shape), ⟨2, ![B, C]⟩] ⟨2, ![T, C]⟩ 0) (q : Fin T) (c : Fin C) (p : Fin A)
    (hp : p.val = q.val) :
    concatenate ⟨2, ![T, C]⟩ 0 [⟨⟨2, ![A, C]⟩, x₁⟩, ⟨⟨2, ![B, C]⟩, x₂⟩] h (ix2 q c) = x₁ (ix2 p c) :=
  concatenate_pair_apply_left 0 x₁ x₂ h (ix2 q c) rfl (ix2 p c) (fun b => match b with | ⟨0, _⟩ => hp | ⟨1, _⟩ => rfl)

/-- Two matrices stacked along the rows: a row past the first extent is a row of the second piece, the extent less. -/
theorem concat_rows_right {A B T C : Nat} (x₁ : (⟨2, ![A, C]⟩ : Shape).Idx → α) (x₂ : (⟨2, ![B, C]⟩ : Shape).Idx → α)
    (h : Shape.Concatenates [(⟨2, ![A, C]⟩ : Shape), ⟨2, ![B, C]⟩] ⟨2, ![T, C]⟩ 0) (q : Fin T) (c : Fin C) (p : Fin B)
    (hp : p.val + A = q.val) :
    concatenate ⟨2, ![T, C]⟩ 0 [⟨⟨2, ![A, C]⟩, x₁⟩, ⟨⟨2, ![B, C]⟩, x₂⟩] h (ix2 q c) = x₂ (ix2 p c) :=
  concatenate_pair_apply_right 0 x₁ x₂ h (ix2 q c) rfl rfl (ix2 p c)
    (fun b => match b with | ⟨0, _⟩ => fun hne => absurd rfl hne | ⟨1, _⟩ => fun _ => rfl) hp

/-- Two matrices laid side by side: a column below the first extent is a column of the first piece. -/
theorem concat_cols_left {R A B T : Nat} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, T]⟩ 1) (r : Fin R) (q : Fin T) (p : Fin A)
    (hp : p.val = q.val) :
    concatenate ⟨2, ![R, T]⟩ 1 [⟨⟨2, ![R, A]⟩, x₁⟩, ⟨⟨2, ![R, B]⟩, x₂⟩] h (ix2 r q) = x₁ (ix2 r p) :=
  concatenate_pair_apply_left 1 x₁ x₂ h (ix2 r q) rfl (ix2 r p) (fun b => match b with | ⟨0, _⟩ => rfl | ⟨1, _⟩ => hp)

/-- Two matrices laid side by side: a column past the first extent is a column of the second piece, the extent less. -/
theorem concat_cols_right {R A B T : Nat} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, T]⟩ 1) (r : Fin R) (q : Fin T) (p : Fin B)
    (hp : p.val + A = q.val) :
    concatenate ⟨2, ![R, T]⟩ 1 [⟨⟨2, ![R, A]⟩, x₁⟩, ⟨⟨2, ![R, B]⟩, x₂⟩] h (ix2 r q) = x₂ (ix2 r p) :=
  concatenate_pair_apply_right 1 x₁ x₂ h (ix2 r q) rfl rfl (ix2 r p)
    (fun b => match b with | ⟨0, _⟩ => fun _ => rfl | ⟨1, _⟩ => fun hne => absurd rfl hne) hp

/-- A column vector broadcast along the columns reads, at `(p, c)`, the entry of row `p`. -/
theorem bcast_col_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A plain `M × K` by `K × N` product into the zero accumulator, at entry `(p, j)`: the sum over `k` of
    `l (p, k) · r (k, j)`. -/
theorem matmul_plain_zero_apply {M K N : Nat} {φ₁ φ₂ : FTy} (l : FVec Ideal ⟨2, ![M, K]⟩ φ₁) (r : FVec Ideal ⟨2, ![K, N]⟩ φ₂)
    (p : Fin M) (j : Fin N) :
    FloatOps.matmul (DotDims.plain M K N) none l r (constant ⟨2, ![M, N]⟩ .f32 0x00000000#32) (ix2 p j)
      = ∑ k : Fin K, l (ix2 p k) * r (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.Net.Ops

end
-- ==== Proof.RefRow.lean ====
/-
  The reference program, read one result entry at a time, is the row function of the specification.

  Every stage of the reference is read at an index `(r, j)` of its result.  The two accumulator stages are the
  affine map of row `r` of an input array; the two concatenations place accumulator `j` at columns `j` and
  `128 + j` (in the two orders), so the weighted sum of the two concatenations is `mix` at row `r`; each clip is
  `clip` entry by entry; each later layer is an affine map of the clipped row before it.  The last stage at
  `(r, 0)` is therefore `rowOut` of row `r`: the reference's result array is `G` of its arguments.
-/
import proofs.«151213_j65841848648290_2_alg».proof.Proof.Gen.ReferenceIdeal.Read
import proofs.«151213_j65841848648290_2_alg».proof.Proof.Spec
import proofs.«151213_j65841848648290_2_alg».proof.Proof.Ops

noncomputable section

namespace Cert.Net.Ref

open Cert.ReferenceIdeal Cert.ReferenceIdeal.Read Idealize.ShloMosaic Idealize.ShloMosaic.ValueIdx Cert.Net

/-! ## The stages' operand indices, in coordinates -/

theorem lidx0 (r : Fin 4096) (j : Fin 128) (k : Fin 41024) : lidx_main_v0 (ix2 r j) k = ix2 r k :=
  funext fun a => Fin.ext (by match a with | ⟨0, _⟩ => rfl | ⟨1, _⟩ => rfl)
theorem ridx0 (r : Fin 4096) (j : Fin 128) (k : Fin 41024) : ridx_main_v0 (ix2 r j) k = ix2 k j :=
  funext fun a => Fin.ext (by match a with | ⟨0, _⟩ => rfl | ⟨1, _⟩ => rfl)
theorem lidx4 (r : Fin 4096) (j : Fin 128) (k : Fin 41024) : lidx_main_v4 (ix2 r j) k = ix2 r k :=
  funext fun a => Fin.ext (by match a with | ⟨0, _⟩ => rfl | ⟨1, _⟩ => rfl)
theorem ridx4 (r : Fin 4096) (j : Fin 128) (k : Fin 41024) : ridx_main_v4 (ix2 r j) k = ix2 k j :=
  funext fun a => Fin.ext (by match a with | ⟨0, _⟩ => rfl | ⟨1, _⟩ => rfl)
theorem idx12 (r : Fin 4096) (j : Fin 128) : idx_main_v1 (idx_main_v2 (ix2 r j)) = ix1 j :=
  funext fun a => Fin.ext (by match a with | ⟨0, _⟩ => rfl)
theorem idx56 (r : Fin 4096) (j : Fin 128) : idx_main_v5 (idx_main_v6 (ix2 r j)) = ix1 j :=
  funext fun a => Fin.ext (by match a with | ⟨0, _⟩ => rfl)
theorem idx9 (r : Fin 4096) (c : Fin 256) : idx_main_v9 (ix2 r c) = ix2 r (0 : Fin 1) :=
  funext fun a => Fin.ext (by match a with | ⟨0, _⟩ => rfl | ⟨1, _⟩ => rfl)
theorem idx12' (r : Fin 4096) (c : Fin 256) : idx_main_v12 (ix2 r c) = ix2 r (0 : Fin 1) :=
  funext fun a => Fin.ext (by match a with | ⟨0, _⟩ => rfl | ⟨1, _⟩ => rfl)
theorem lidx16 (r : Fin 4096) (j : Fin 32) (k : Fin 256) : lidx_main_v16 (ix2 r j) k = ix2 r k :=
  funext fun a => Fin.ext (by match a with | ⟨0, _⟩ => rfl | ⟨1, _⟩ => rfl)
theorem ridx16 (r : Fin 4096) (j : Fin 32) (k : Fin 256) : ridx_main_v16 (ix2 r j) k = ix2 k j :=
  funext fun a => Fin.ext (by match a with | ⟨0, _⟩ => rfl | ⟨1, _⟩ => rfl)
theorem idx1718 (r : Fin 4096) (j : Fin 32) : idx_main_v17 (idx_main_v18 (ix2 r j)) = ix1 j :=
  funext fun a => Fin.ext (by match a with | ⟨0, _⟩ => rfl)
theorem lidx21 (r : Fin 4096) (j : Fin 32) (k : Fin 32) : lidx_main_v21 (ix2 r j) k = ix2 r k :=
  funext fun a => Fin.ext (by match a with | ⟨0, _⟩ => rfl | ⟨1, _⟩ => rfl)
theorem ridx21 (r : Fin 4096) (j : Fin 32) (k : Fin 32) : ridx_main_v21 (ix2 r j) k = ix2 k j :=
  funext fun a => Fin.ext (by match a with | ⟨0, _⟩ => rfl | ⟨1, _⟩ => rfl)
theorem idx2223 (r : Fin 4096) (j : Fin 32) : idx_main_v22 (idx_main_v23 (ix2 r j)) = ix1 j :=
  funext fun a => Fin.ext (by match a with | ⟨0, _⟩ => rfl)
theorem lidx26 (r : Fin 4096) (j : Fin 1) (k : Fin 32) : lidx_main_v26 (ix2 r j) k = ix2 r k :=
  funext fun a => Fin.ext (by match a with | ⟨0, _⟩ => rfl | ⟨1, _⟩ => rfl)
theorem ridx26 (r : Fin 4096) (j : Fin 1) (k : Fin 32) : ridx_main_v26 (ix2 r j) k = ix2 k j :=
  funext fun a => Fin.ext (by match a with | ⟨0, _⟩ => rfl | ⟨1, _⟩ => rfl)
theorem idx2728 (r : Fin 4096) (j : Fin 1) : idx_main_v27 (idx_main_v28 (ix2 r j)) = ix1 j :=
  funext fun a => Fin.ext (by match a with | ⟨0, _⟩ => exact (Fin.val_eq_zero j).symm)

/-! ## The stages, row by row -/

section
variable (X0 X1 : (⟨S4096x1, .f32⟩ : BufTy).Contents (Elt Ideal)) (X2 X3 : (⟨S4096x41024, .f32⟩ : BufTy).Contents (Elt Ideal))
  (X4 : (⟨S41024x128, .f32⟩ : BufTy).Contents (Elt Ideal)) (X5 : (⟨S128, .f32⟩ : BufTy).Contents (Elt Ideal))
  (X6 : (⟨S256x32, .f32⟩ : BufTy).Contents (Elt Ideal)) (X7 : (⟨S32, .f32⟩ : BufTy).Contents (Elt Ideal))
  (X8 : (⟨S32x32, .f32⟩ : BufTy).Contents (Elt Ideal)) (X9 : (⟨S32, .f32⟩ : BufTy).Contents (Elt Ideal))
  (X10 : (⟨S32x1, .f32⟩ : BufTy).Contents (Elt Ideal)) (X11 : (⟨S1, .f32⟩ : BufTy).Contents (Elt Ideal))

/-- The accumulators of the first input array: row `r` through the shared affine map. -/
theorem acc_first (r : Fin 4096) (j : Fin 128) :
    val_main_v3 (F := Ideal) X2 X4 X5 (ix2 r j)
      = affine (fun k => X2 (ix2 r k)) (fun k j => X4 (ix2 k j)) (fun j => X5 (ix1 j)) j := by
  rw [val_main_v3_apply, val_main_v0_apply, val_main_v2_apply, val_main_v1_apply]
  simp only [lidx0, ridx0, idx12]
  rfl

/-- The accumulators of the second input array. -/
theorem acc_second (r : Fin 4096) (j : Fin 128) :
    val_main_v7 (F := Ideal) X3 X4 X5 (ix2 r j)
      = affine (fun k => X3 (ix2 r k)) (fun k j => X4 (ix2 k j)) (fun j => X5 (ix1 j)) j := by
  rw [val_main_v7_apply, val_main_v4_apply, val_main_v6_apply, val_main_v5_apply]
  simp only [lidx4, ridx4, idx56]
  rfl

/-- The concatenation (first, second): column `c` below 128 is the first array's accumulator `c`, column
    `128 + c` the second's. -/
theorem cat_first_second (r : Fin 4096) (c : Fin 256) :
    val_main_v8 (F := Ideal) X2 X3 X4 X5 (ix2 r c) =
      if h : c.val < 128 then val_main_v3 (F := Ideal) X2 X4 X5 (ix2 r (⟨c.val, h⟩ : Fin 128))
      else val_main_v7 (F := Ideal) X3 X4 X5 (ix2 r (⟨c.val - 128, by have := c.isLt; omega⟩ : Fin 128)) := by
  unfold val_main_v8
  by_cases h : c.val < 128
  · rw [dif_pos h]
    exact Ops.concat_cols_left _ _ _ r c ⟨c.val, h⟩ rfl
  · rw [dif_neg h]
    exact Ops.concat_cols_right _ _ _ r c ⟨c.val - 128, by have := c.isLt; omega⟩ (by show c.val - 128 + 128 = c.val; omega)

/-- The concatenation in the other order (second, first). -/
theorem cat_second_first (r : Fin 4096) (c : Fin 256) :
    val_main_v11 (F := Ideal) X2 X3 X4 X5 (ix2 r c) =
      if h : c.val < 128 then val_main_v7 (F := Ideal) X3 X4 X5 (ix2 r (⟨c.val, h⟩ : Fin 128))
      else val_main_v3 (F := Ideal) X2 X4 X5 (ix2 r (⟨c.val - 128, by have := c.isLt; omega⟩ : Fin 128)) := by
  unfold val_main_v11
  by_cases h : c.val < 128
  · rw [dif_pos h]
    exact Ops.concat_cols_left _ _ _ r c ⟨c.val, h⟩ rfl
  · rw [dif_neg h]
    exact Ops.concat_cols_right _ _ _ r c ⟨c.val - 128, by have := c.isLt; omega⟩ (by show c.val - 128 + 128 = c.val; omega)

/-- The weighted sum of the two concatenations is `mix` of row `r`'s two accumulator vectors. -/
theorem mixed (r : Fin 4096) (c : Fin 256) :
    val_main_v14 (F := Ideal) X0 X1 X2 X3 X4 X5 (ix2 r c)
      = mix (X0 (ix2 r (0 : Fin 1))) (X1 (ix2 r (0 : Fin 1)))
          (affine (fun k => X2 (ix2 r k)) (fun k j => X4 (ix2 k j)) (fun j => X5 (ix1 j)))
          (affine (fun k => X3 (ix2 r k)) (fun k j => X4 (ix2 k j)) (fun j => X5 (ix1 j))) c := by
  rw [val_main_v14_apply, val_main_v10_apply, val_main_v13_apply, val_main_v9_apply, val_main_v12_apply,
    cat_first_second, cat_second_first, idx9, idx12']
  unfold mix
  by_cases h : c.val < 128
  · rw [dif_pos h, dif_pos h, dif_pos h, acc_first, acc_second]; rfl
  · rw [dif_neg h, dif_neg h, dif_neg h, acc_first, acc_second]; rfl

/-- The first clip, entry by entry. -/
theorem clipped0 (r : Fin 4096) (c : Fin 256) :
    val_main_v15 (F := Ideal) X0 X1 X2 X3 X4 X5 (ix2 r c)
      = clip (mix (X0 (ix2 r (0 : Fin 1))) (X1 (ix2 r (0 : Fin 1)))
          (affine (fun k => X2 (ix2 r k)) (fun k j => X4 (ix2 k j)) (fun j => X5 (ix1 j)))
          (affine (fun k => X3 (ix2 r k)) (fun k j => X4 (ix2 k j)) (fun j => X5 (ix1 j))) c) := by
  rw [val_main_v15_apply, val_main_call0_v4_apply, val_main_call0_v3_apply, val_main_cst_0_apply,
    val_main_call0_v2_apply, val_main_call0_v1_apply, val_main_call0_v0_apply, val_main_cst_apply, mixed]
  rfl

/-- The first hidden layer: an affine map of the clipped mixed row. -/
theorem layer1 (r : Fin 4096) (j : Fin 32) :
    val_main_v19 (F := Ideal) X0 X1 X2 X3 X4 X5 X6 X7 (ix2 r j)
      = affine (fun c => clip (mix (X0 (ix2 r (0 : Fin 1))) (X1 (ix2 r (0 : Fin 1)))
          (affine (fun k => X2 (ix2 r k)) (fun k j => X4 (ix2 k j)) (fun j => X5 (ix1 j)))
          (affine (fun k => X3 (ix2 r k)) (fun k j => X4 (ix2 k j)) (fun j => X5 (ix1 j))) c))
          (fun k j => X6 (ix2 k j)) (fun j => X7 (ix1 j)) j := by
  rw [val_main_v19_apply, val_main_v16_apply, val_main_v18_apply, val_main_v17_apply]
  simp only [lidx16, ridx16, idx1718, clipped0]
  rfl

/-- The second clip. -/
theorem clipped1 (r : Fin 4096) (j : Fin 32) :
    val_main_v20 (F := Ideal) X0 X1 X2 X3 X4 X5 X6 X7 (ix2 r j)
      = clip (val_main_v19 (F := Ideal) X0 X1 X2 X3 X4 X5 X6 X7 (ix2 r j)) := by
  rw [val_main_v20_apply, val_main_call1_v4_apply, val_main_call1_v3_apply, val_main_cst_2_apply,
    val_main_call1_v2_apply, val_main_call1_v1_apply, val_main_call1_v0_apply, val_main_cst_1_apply]
  rfl

/-- The second hidden layer. -/
theorem layer2 (r : Fin 4096) (j : Fin 32) :
    val_main_v24 (F := Ideal) X0 X1 X2 X3 X4 X5 X6 X7 X8 X9 (ix2 r j)
      = affine (fun k => clip (val_main_v19 (F := Ideal) X0 X1 X2 X3 X4 X5 X6 X7 (ix2 r k)))
          (fun k j => X8 (ix2 k j)) (fun j => X9 (ix1 j)) j := by
  rw [val_main_v24_apply, val_main_v21_apply, val_main_v23_apply, val_main_v22_apply]
  simp only [lidx21, ridx21, idx2223, clipped1]
  rfl

/-- The third clip. -/
theorem clipped2 (r : Fin 4096) (j : Fin 32) :
    val_main_v25 (F := Ideal) X0 X1 X2 X3 X4 X5 X6 X7 X8 X9 (ix2 r j)
      = clip (val_main_v24 (F := Ideal) X0 X1 X2 X3 X4 X5 X6 X7 X8 X9 (ix2 r j)) := by
  rw [val_main_v25_apply, val_main_call2_v4_apply, val_main_call2_v3_apply, val_main_cst_4_apply,
    val_main_call2_v2_apply, val_main_call2_v1_apply, val_main_call2_v0_apply, val_main_cst_3_apply]
  rfl

/-- The output layer. -/
theorem layer3 (r : Fin 4096) (j : Fin 1) :
    val_main_v29 (F := Ideal) X0 X1 X2 X3 X4 X5 X6 X7 X8 X9 X10 X11 (ix2 r j)
      = affine (fun k => clip (val_main_v24 (F := Ideal) X0 X1 X2 X3 X4 X5 X6 X7 X8 X9 (ix2 r k)))
          (fun k j => X10 (ix2 k j)) (fun j => X11 (ix1 j)) j := by
  rw [val_main_v29_apply, val_main_v26_apply, val_main_v28_apply, val_main_v27_apply]
  simp only [lidx26, ridx26, idx2728, clipped2]
  rfl

/-- THE REFERENCE IS `G`: its result array, as a function of its twelve argument arrays, is the specification. -/
theorem result_eq :
    val_main_v29 (F := Ideal) X0 X1 X2 X3 X4 X5 X6 X7 X8 X9 X10 X11 = G X0 X1 X2 X3 X4 X5 X6 X7 X8 X9 X10 X11 := by
  funext i
  obtain ⟨r, z, rfl⟩ : ∃ (r : Fin 4096) (z : Fin 1), i = ix2 r z := ⟨i 0, i 1, eq_ix2 i⟩
  obtain rfl : z = 0 := Subsingleton.elim _ _
  rw [layer3]
  simp only [layer2, layer1]
  rfl

end

end Cert.Net.Ref

end
-- ==== Proof.KernelRow.lean ====
/-
  The kernel's body, read one entry of its output block at a time, is the row function of the specification.

  At a grid point the body holds a 64-row block of each input array and all of every parameter array.  It
  stacks the two input blocks on top of each other (128 rows), multiplies the stack ONCE by the shared weight
  matrix, and cuts the product back into its top and bottom 64 rows: row `p` of the top half is the inner
  products of row `p` of the first block, row `p` of the bottom half (row `64 + p` of the stack) those of row `p` of
  the second block — so with the bias added each half is the affine map of the specification applied to that
  row.  The two weighted sums laid side by side are `mix`; the clips and the three later matrix products with
  their biases are the specification's `clip` and `affine`, a product's entry being the sum over the contracted
  axis.  Changing an entry's number format is the identity on the extended reals.
-/
import proofs.«151213_j65841848648290_2_alg».proof.Proof.Gen.KernelIdeal.Skeleton
import proofs.«151213_j65841848648290_2_alg».proof.Proof.Spec
import proofs.«151213_j65841848648290_2_alg».proof.Proof.Ops
import Idealize.ShloMosaic.Lib.ValueLayout

noncomputable section

namespace Cert.Net.Kernel

open Cert.KernelIdeal Cert.KernelIdeal.Gen Idealize.ShloMosaic Idealize.ShloMosaic.ValueIdx Cert.Net

/-- An affine layer depends on its input only through the input's entries. -/
theorem affine_congr {n m : Nat} (x x' : Fin n → EReal) (W : Fin n → Fin m → EReal) (b : Fin m → EReal) (j : Fin m)
    (h : ∀ k, x k = x' k) : affine x W b j = affine x' W b j := by
  rw [show x = x' from funext h]

/-! ## The four matrix products, entry by entry -/

theorem mm0 (l : FVec Ideal S128x41024 .bf16) (r : FVec Ideal S41024x128 .bf16) (q : Fin 128) (j : Fin 128) :
    matmul dot_S128x41024_S41024x128_S128x128_1_0_0_1_n_n none l r (constant S128x128 .f32 0x00000000#32) (ix2 q j)
      = ∑ k : Fin 41024, l (ix2 q k) * r (ix2 k j) :=
  Ops.matmul_plain_zero_apply l r q j

theorem mm1 (l : FVec Ideal S64x256 .f32) (r : FVec Ideal S256x32 .f32) (p : Fin 64) (j : Fin 32) :
    matmul dot_S64x256_S256x32_S64x32_1_0_0_1_n_n none l r (constant S64x32 .f32 0x00000000#32) (ix2 p j)
      = ∑ k : Fin 256, l (ix2 p k) * r (ix2 k j) :=
  Ops.matmul_plain_zero_apply l r p j

theorem mm2 (l : FVec Ideal S64x32 .f32) (r : FVec Ideal S32x32 .f32) (p : Fin 64) (j : Fin 32) :
    matmul dot_S64x32_S32x32_S64x32_1_0_0_1_n_n none l r (constant S64x32 .f32 0x00000000#32) (ix2 p j)
      = ∑ k : Fin 32, l (ix2 p k) * r (ix2 k j) :=
  Ops.matmul_plain_zero_apply l r p j

theorem mm3 (l : FVec Ideal S64x32 .f32) (r : FVec Ideal S32x1 .f32) (p : Fin 64) (j : Fin 1) :
    matmul dot_S64x32_S32x1_S64x1_1_0_0_1_n_n none l r (constant S64x1 .f32 0x00000000#32) (ix2 p j)
      = ∑ k : Fin 32, l (ix2 p k) * r (ix2 k j) :=
  Ops.matmul_plain_zero_apply l r p j

/-! ## The stacked product's two halves -/

/-- Row `p` of the TOP half of the stacked product, with the bias row added: the affine map of row `p` of the
    first stacked block. -/
theorem acc_top (v1 v3 : FVec Ideal S64x41024 .bf16) (v5 : FVec Ideal S41024x128 .bf16) (v9 : FVec Ideal S1x128 .f32)
    (hc : Shape.Concatenates [S64x41024, S64x41024] S128x41024 0) (hs : S128x128.Slices ![0, 0] S64x128)
    (hb : S1x128.Broadcasts S64x128) (p : Fin 64) (j : Fin 128) :
    addf (extractStridedSlice S64x128 ![0, 0]
        (matmul dot_S128x41024_S41024x128_S128x128_1_0_0_1_n_n none
          (concatenate S128x41024 0 [⟨S64x41024, v1⟩, ⟨S64x41024, v3⟩] hc) v5 (constant S128x128 .f32 0x00000000#32)) hs)
      (broadcastTo S64x128 v9 hb) (ix2 p j)
      = affine (fun k => v1 (ix2 p k)) (fun k j => v5 (ix2 k j)) (fun j => v9 (ix2 (0 : Fin 1) j)) j := by
  rw [addf_apply, slice2_axis0_apply 0 _ hs p j ⟨p.val, by have := p.isLt; omega⟩ (Nat.zero_add _).symm, mm0,
    broadcastTo_1b_ab_apply]
  have e : ∀ k : Fin 41024, concatenate S128x41024 0 [⟨S64x41024, v1⟩, ⟨S64x41024, v3⟩] hc
      (ix2 (⟨p.val, by have := p.isLt; omega⟩ : Fin 128) k) = v1 (ix2 p k) :=
    fun k => Ops.concat_rows_left v1 v3 hc _ k p rfl
  simp only [e]
  rfl

/-- Row `p` of the BOTTOM half (row `64 + p` of the stack): the affine map of row `p` of the second stacked block. -/
theorem acc_bot (v1 v3 : FVec Ideal S64x41024 .bf16) (v5 : FVec Ideal S41024x128 .bf16) (v9 : FVec Ideal S1x128 .f32)
    (hc : Shape.Concatenates [S64x41024, S64x41024] S128x41024 0) (hs : S128x128.Slices ![64, 0] S64x128)
    (hb : S1x128.Broadcasts S64x128) (p : Fin 64) (j : Fin 128) :
    addf (extractStridedSlice S64x128 ![64, 0]
        (matmul dot_S128x41024_S41024x128_S128x128_1_0_0_1_n_n none
          (concatenate S128x41024 0 [⟨S64x41024, v1⟩, ⟨S64x41024, v3⟩] hc) v5 (constant S128x128 .f32 0x00000000#32)) hs)
      (broadcastTo S64x128 v9 hb) (ix2 p j)
      = affine (fun k => v3 (ix2 p k)) (fun k j => v5 (ix2 k j)) (fun j => v9 (ix2 (0 : Fin 1) j)) j := by
  rw [addf_apply, slice2_axis0_apply 64 _ hs p j ⟨64 + p.val, by have := p.isLt; omega⟩ rfl, mm0,
    broadcastTo_1b_ab_apply]
  have e : ∀ k : Fin 41024, concatenate S128x41024 0 [⟨S64x41024, v1⟩, ⟨S64x41024, v3⟩] hc
      (ix2 (⟨64 + p.val, by have := p.isLt; omega⟩ : Fin 128) k) = v3 (ix2 p k) :=
    fun k => Ops.concat_rows_right v1 v3 hc _ k p (Nat.add_comm _ _)
  simp only [e]
  rfl

/-! ## The body's two payloads -/

/-- The first hidden layer's pre-activation, entry `(p, j)`: the affine map of the clipped mixed row. -/
theorem pay2_apply (x0 x1 : Vec Ideal S64x41024 .f32) (x4 : Vec Ideal S41024x128 .bf16) (x5 : Vec Ideal S1x128 .f32)
    (x2 x3 : Vec Ideal S64x1 .f32) (x6 : Vec Ideal S256x32 .f32) (x7 : Vec Ideal S1x32 .f32) (p : Fin 64) (j : Fin 32) :
    k0_pay2 (F := Ideal) x0 x1 x4 x5 x2 x3 x6 x7 (ix2 p j)
      = affine (fun c => clip (mix (x2 (ix2 p (0 : Fin 1))) (x3 (ix2 p (0 : Fin 1)))
          (affine (fun k => x0 (ix2 p k)) (fun k j => x4 (ix2 k j)) (fun j => x5 (ix2 (0 : Fin 1) j)))
          (affine (fun k => x1 (ix2 p k)) (fun k j => x4 (ix2 k j)) (fun j => x5 (ix2 (0 : Fin 1) j))) c))
          (fun k j => x6 (ix2 k j)) (fun j => x7 (ix2 (0 : Fin 1) j)) j := by
  unfold k0_pay2
  simp only [shapeCast_self]
  rw [addf_apply, mm1, broadcastTo_1b_ab_apply]
  show affine (fun c => _) (fun k j => x6 (ix2 k j)) (fun j => x7 (ix2 (0 : Fin 1) j)) j = _
  refine affine_congr _ _ _ _ _ fun c => ?_
  rw [minimumf_apply, maximumf_apply, broadcast_apply, broadcast_apply]
  unfold clip
  refine congrArg (min _) (congrArg (max _) ?_)
  unfold mix
  by_cases h : c.val < 128
  · rw [dif_pos h]
    refine (Ops.concat_cols_left _ _ _ p c ⟨c.val, h⟩ rfl).trans ?_
    rw [addf_apply]
    rw [mulf_apply]
    rw [mulf_apply]
    rw [Ops.bcast_col_apply]
    rw [Ops.bcast_col_apply]
    rw [acc_top]
    rw [acc_bot]
    simp only [truncf_apply, shapeCast_self]
  · rw [dif_neg h]
    refine (Ops.concat_cols_right _ _ _ p c ⟨c.val - 128, by have := c.isLt; omega⟩
      (by show c.val - 128 + 128 = c.val; omega)).trans ?_
    rw [addf_apply]
    rw [mulf_apply]
    rw [mulf_apply]
    rw [Ops.bcast_col_apply]
    rw [Ops.bcast_col_apply]
    rw [acc_top]
    rw [acc_bot]
    simp only [truncf_apply, shapeCast_self]

/-- The stored value, entry `(p, j)`: two more clipped affine layers over the first layer's pre-activations. -/
theorem pay1_apply (v38 : FVec Ideal S64x32 .f32) (x8 : Vec Ideal S32x32 .f32) (x9 : Vec Ideal S1x32 .f32)
    (x10 : Vec Ideal S32x1 .f32) (x11 : Vec Ideal S1x1 .f32) (p : Fin 64) (j : Fin 1) :
    k0_pay1 (F := Ideal) v38 x8 x9 x10 x11 (ix2 p j)
      = affine (fun k => clip (affine (fun k' => clip (v38 (ix2 p k'))) (fun k j => x8 (ix2 k j))
          (fun j => x9 (ix2 (0 : Fin 1) j)) k)) (fun k j => x10 (ix2 k j)) (fun j => x11 (ix2 (0 : Fin 1) j)) j := by
  unfold k0_pay1
  simp only [shapeCast_self]
  rw [addf_apply, mm3, broadcastTo_1b_ab_apply]
  show affine (fun k => _) (fun k j => x10 (ix2 k j)) (fun j => x11 (ix2 (0 : Fin 1) j)) j = _
  refine affine_congr _ _ _ _ _ fun k => ?_
  rw [minimumf_apply, maximumf_apply, broadcast_apply, broadcast_apply]
  unfold clip
  refine congrArg (min _) (congrArg (max _) ?_)
  rw [addf_apply, mm2, broadcastTo_1b_ab_apply]
  show affine (fun k' => _) (fun k j => x8 (ix2 k j)) (fun j => x9 (ix2 (0 : Fin 1) j)) k = _
  refine affine_congr _ _ _ _ _ fun k' => ?_
  rw [minimumf_apply, maximumf_apply, broadcast_apply, broadcast_apply]
  rfl

/-- THE BODY'S VALUE at row `p` of its output block: `rowOut` of row `p` of the two input blocks and the two
    weight blocks, over the whole parameter blocks. -/
theorem body_apply (x0 x1 : Vec Ideal S64x41024 .f32) (x2 x3 : Vec Ideal S64x1 .f32) (x4 : Vec Ideal S41024x128 .bf16)
    (x5 : Vec Ideal S1x128 .f32) (x6 : Vec Ideal S256x32 .f32) (x7 : Vec Ideal S1x32 .f32) (x8 : Vec Ideal S32x32 .f32)
    (x9 : Vec Ideal S1x32 .f32) (x10 : Vec Ideal S32x1 .f32) (x11 : Vec Ideal S1x1 .f32) (p : Fin 64) :
    k0_pay1 (F := Ideal) (k0_pay2 (F := Ideal) x0 x1 x4 x5 x2 x3 x6 x7) x8 x9 x10 x11 (ix2 p (0 : Fin 1))
      = rowOut (fun k => x0 (ix2 p k)) (fun k => x1 (ix2 p k)) (x2 (ix2 p (0 : Fin 1))) (x3 (ix2 p (0 : Fin 1)))
          (fun k j => x4 (ix2 k j)) (fun j => x5 (ix2 (0 : Fin 1) j)) (fun k j => x6 (ix2 k j)) (fun j => x7 (ix2 (0 : Fin 1) j))
          (fun k j => x8 (ix2 k j)) (fun j => x9 (ix2 (0 : Fin 1) j)) (fun k j => x10 (ix2 k j)) (fun j => x11 (ix2 (0 : Fin 1) j)) := by
  rw [pay1_apply]
  simp only [pay2_apply]
  rfl

end Cert.Net.Kernel

end
-- ==== Proof.KernelValue.lean ====
/-
  From the body's blocks to the kernel's result array.

  The grid has 64 points.  At point `t` the two input arrays and the two weight columns are staged in blocks of 64
  rows — row `p` of a block is row `64 t + p` of its array — and every parameter array is staged whole; the
  parameter arrays the region finds are the arguments themselves, one re-typed entry by entry and four re-shaped
  from a vector to a one-row matrix, so entry `(0, j)` of the staged row is entry `j` of the argument.  Point `t`
  writes back rows `64 t … 64 t + 63` of the result, and by the row lemma of the body each written entry is the
  specification's `rowOut` of that row of the arguments: what point `t` writes is block `t` of `G` of the arguments.
  The 64 blocks cover the 4096 rows (row `r` lies in block `r / 64`), so after the run the result array is `G` of the
  arguments.
-/
import proofs.«151213_j65841848648290_2_alg».proof.Proof.Gen.KernelIdeal.Value
import proofs.«151213_j65841848648290_2_alg».proof.Proof.Spec
import proofs.«151213_j65841848648290_2_alg».proof.Proof.KernelRow
import Idealize.ShloMosaic.Lib.StableHlo.Run
import Idealize.ShloMosaic.Lib.ValueLayout

noncomputable section

namespace Cert.Net.KernelValue

open Cert.KernelIdeal Cert.KernelIdeal.Gen Cert.KernelIdeal.Value Idealize.ShloMosaic Idealize.ShloMosaic.TcCoe
open Idealize.SL.Sem Idealize.ShloMosaic.ValueIdx Cert.Net Idealize.ShloMosaic.StableHlo
open Idealize.ShloMosaic.Pipeline (Dat)

variable (m : (ℓ : Loc nD τ sig) → Buf (Elt Ideal) ℓ) (ρ : Dev nD → PrngReg)

/-- The specification applied to the twelve argument arrays of core `c`. -/
def Gm (c : Dev nD) : S4096x1.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem hz : (![0, 0] : Fin 2 → Nat) = fun _ => 0 := funext fun a => by fin_cases a <;> rfl

/-- Row `p` of the block of point `t` is row `64 t + p` of the array. -/
def row (t : Fin cfg0.N) (p : Fin 64) : Fin 4096 :=
  ⟨64 * t.val + p.val, by have := t.isLt; have := p.isLt; have hN : cfg0.N = 64 := N_0; omega⟩

/-! ## The index maps, decided over the 64 points -/

theorem idx_row0 : ∀ t : Fin cfg0.N, win0_0.index t (0 : Fin 2) = t.val ∧ win0_0.index t (1 : Fin 2) = 0 :=
  (by decide +kernel : ∀ t : Fin grid0.N, _)
theorem idx_row1 : ∀ t : Fin cfg0.N, win0_1.index t (0 : Fin 2) = t.val ∧ win0_1.index t (1 : Fin 2) = 0 :=
  (by decide +kernel : ∀ t : Fin grid0.N, _)
theorem idx_row2 : ∀ t : Fin cfg0.N, win0_2.index t (0 : Fin 2) = t.val ∧ win0_2.index t (1 : Fin 2) = 0 :=
  (by decide +kernel : ∀ t : Fin grid0.N, _)
theorem idx_row3 : ∀ t : Fin cfg0.N, win0_3.index t (0 : Fin 2) = t.val ∧ win0_3.index t (1 : Fin 2) = 0 :=
  (by decide +kernel : ∀ t : Fin grid0.N, _)
theorem idx_row12 : ∀ t : Fin cfg0.N, win0_12.index t (0 : Fin 2) = t.val ∧ win0_12.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)
theorem idx_whole11 : ∀ t : Fin cfg0.N, win0_11.index t (0 : Fin 2) = 0 ∧ win0_11.index t (1 : Fin 2) = 0 :=
  (by decide +kernel : ∀ t : Fin grid0.N, _)

/-! ## The parameter arrays the region finds -/

/-- The shared weight matrix re-typed entry by entry: on the extended reals, the argument itself. -/
theorem V_v0 (c : Dev nD) : (V m c main_v0 : S41024x128.Idx → EReal) = (m ((c : Thread nD τ).loc main_arg4) : S41024x128.Idx → EReal) := by
  dsimp only [Gen.V, Gen.hostOps0]
  after_results
  rfl

/-- The first bias as a one-row matrix: entry `(0, j)` is entry `j` of the argument. -/
theorem V_v1 (c : Dev nD) (u : Fin 1) (j : Fin 128) :
    (V m c main_v1 : S1x128.Idx → EReal) (ix2 u j) = (m ((c : Thread nD τ).loc main_arg5) : S128.Idx → EReal) (ix1 j) := by
  have e : (V m c main_v1 : S1x128.Idx → EReal)
      = shapeCast S1x128 (m ((c : Thread nD τ).loc main_arg5) : S128.Idx → EReal) shapeCasts_S128_S1x128 := by
    dsimp only [Gen.V, Gen.hostOps0]
    after_results
    rfl
  rw [e]
  exact shapeCast_a_1a_apply _ _ u j

/-- The second bias as a one-row matrix. -/
theorem V_v2 (c : Dev nD) (u : Fin 1) (j : Fin 32) :
    (V m c main_v2 : S1x32.Idx → EReal) (ix2 u j) = (m ((c : Thread nD τ).loc main_arg7) : S32.Idx → EReal) (ix1 j) := by
  have e : (V m c main_v2 : S1x32.Idx → EReal)
      = shapeCast S1x32 (m ((c : Thread nD τ).loc main_arg7) : S32.Idx → EReal) shapeCasts_S32_S1x32 := by
    dsimp only [Gen.V, Gen.hostOps0]
    after_results
    rfl
  rw [e]
  exact shapeCast_a_1a_apply _ _ u j

/-- The third bias as a one-row matrix. -/
theorem V_v3 (c : Dev nD) (u : Fin 1) (j : Fin 32) :
    (V m c main_v3 : S1x32.Idx → EReal) (ix2 u j) = (m ((c : Thread nD τ).loc main_arg9) : S32.Idx → EReal) (ix1 j) := by
  have e : (V m c main_v3 : S1x32.Idx → EReal)
      = shapeCast S1x32 (m ((c : Thread nD τ).loc main_arg9) : S32.Idx → EReal) shapeCasts_S32_S1x32 := by
    dsimp only [Gen.V, Gen.hostOps0]
    after_results
    rfl
  rw [e]
  exact shapeCast_a_1a_apply _ _ u j

/-- The output bias as a one-by-one matrix. -/
theorem V_v4 (c : Dev nD) (u : Fin 1) (j : Fin 1) :
    (V m c main_v4 : S1x1.Idx → EReal) (ix2 u j) = (m ((c : Thread nD τ).loc main_arg11) : S1.Idx → EReal) (ix1 j) := by
  have e : (V m c main_v4 : S1x1.Idx → EReal)
      = shapeCast S1x1 (m ((c : Thread nD τ).loc main_arg11) : S1.Idx → EReal) shapeCasts_S1_S1x1 := by
    dsimp only [Gen.V, Gen.hostOps0]
    after_results
    rfl
  rw [e]
  exact shapeCast_a_1a_apply _ _ u j

/-! ## The staged blocks, entry by entry -/

/-- The first input array's block at point `t`: rows `64 t …` of the argument. -/
theorem blk0 (c : Dev nD) (t : Fin cfg0.N) (p : Fin 64) (k : Fin 41024) :
    (iblk m c 0 t : Vec Ideal S64x41024 .f32) (ix2 p k)
      = (m ((c : Thread nD τ).loc main_arg2) : S4096x41024.Idx → EReal) (ix2 (row t p) k) := by
  obtain ⟨e0, e1⟩ := idx_row0 t
  unfold iblk
  rw [View.read_apply]
  show V m c main_arg2 _ = _
  rw [V_main_arg2 m c]
  refine congrArg _ (funext fun a => Fin.ext ?_)
  match a with
  | ⟨0, _⟩ => show win0_0.index t (0 : Fin 2) * 64 + 1 * p.val = 64 * t.val + p.val; rw [e0]; omega
  | ⟨1, _⟩ => show win0_0.index t (1 : Fin 2) * 41024 + 1 * k.val = k.val; rw [e1]; omega

/-- The second input array's block. -/
theorem blk1 (c : Dev nD) (t : Fin cfg0.N) (p : Fin 64) (k : Fin 41024) :
    (iblk m c 1 t : Vec Ideal S64x41024 .f32) (ix2 p k)
      = (m ((c : Thread nD τ).loc main_arg3) : S4096x41024.Idx → EReal) (ix2 (row t p) k) := by
  obtain ⟨e0, e1⟩ := idx_row1 t
  unfold iblk
  rw [View.read_apply]
  show V m c main_arg3 _ = _
  rw [V_main_arg3 m c]
  refine congrArg _ (funext fun a => Fin.ext ?_)
  match a with
  | ⟨0, _⟩ => show win0_1.index t (0 : Fin 2) * 64 + 1 * p.val = 64 * t.val + p.val; rw [e0]; omega
  | ⟨1, _⟩ => show win0_1.index t (1 : Fin 2) * 41024 + 1 * k.val = k.val; rw [e1]; omega

/-- The first weight column's block. -/
theorem blk2 (c : Dev nD) (t : Fin cfg0.N) (p : Fin 64) :
    (iblk m c 2 t : Vec Ideal S64x1 .f32) (ix2 p (0 : Fin 1))
      = (m ((c : Thread nD τ).loc main_arg0) : S4096x1.Idx → EReal) (ix2 (row t p) (0 : Fin 1)) := by
  obtain ⟨e0, e1⟩ := idx_row2 t
  unfold iblk
  rw [View.read_apply]
  show V m c main_arg0 _ = _
  rw [V_main_arg0 m c]
  refine congrArg _ (funext fun a => Fin.ext ?_)
  match a with
  | ⟨0, _⟩ => show win0_2.index t (0 : Fin 2) * 64 + 1 * p.val = 64 * t.val + p.val; rw [e0]; omega
  | ⟨1, _⟩ => show win0_2.index t (1 : Fin 2) * 1 + 1 * 0 = 0; rw [e1]

/-- The second weight column's block. -/
theorem blk3 (c : Dev nD) (t : Fin cfg0.N) (p : Fin 64) :
    (iblk m c 3 t : Vec Ideal S64x1 .f32) (ix2 p (0 : Fin 1))
      = (m ((c : Thread nD τ).loc main_arg1) : S4096x1.Idx → EReal) (ix2 (row t p) (0 : Fin 1)) := by
  obtain ⟨e0, e1⟩ := idx_row3 t
  unfold iblk
  rw [View.read_apply]
  show V m c main_arg1 _ = _
  rw [V_main_arg1 m c]
  refine congrArg _ (funext fun a => Fin.ext ?_)
  match a with
  | ⟨0, _⟩ => show win0_3.index t (0 : Fin 2) * 64 + 1 * p.val = 64 * t.val + p.val; rw [e0]; omega
  | ⟨1, _⟩ => show win0_3.index t (1 : Fin 2) * 1 + 1 * 0 = 0; rw [e1]

/-- The shared weight matrix, staged whole. -/
theorem blk4 (c : Dev nD) (t : Fin cfg0.N) (a : Fin 41024) (b : Fin 128) :
    (iblk m c 4 t : Vec Ideal S41024x128 .bf16) (ix2 a b) = (m ((c : Thread nD τ).loc main_arg4) : S41024x128.Idx → EReal) (ix2 a b) := by
  obtain ⟨e0, e1⟩ := idx_whole4 t
  unfold iblk
  rw [View.read_apply]
  show V m c main_v0 _ = _
  refine Eq.trans (congrArg _ (funext fun x => Fin.ext ?_)) (congrFun (V_v0 m c) (ix2 a b))
  match x with
  | ⟨0, _⟩ => show win0_4.index t (0 : Fin 2) * 41024 + 1 * a.val = a.val; rw [e0]; omega
  | ⟨1, _⟩ => show win0_4.index t (1 : Fin 2) * 128 + 1 * b.val = b.val; rw [e1]; omega

/-- The first bias row, staged whole. -/
theorem blk5 (c : Dev nD) (t : Fin cfg0.N) (a : Fin 1) (b : Fin 128) :
    (iblk m c 5 t : Vec Ideal S1x128 .f32) (ix2 a b) = (m ((c : Thread nD τ).loc main_arg5) : S128.Idx → EReal) (ix1 b) := by
  obtain ⟨e0, e1⟩ := idx_whole5 t
  unfold iblk
  rw [View.read_apply]
  show V m c main_v1 _ = _
  refine Eq.trans (congrArg _ (funext fun x => Fin.ext ?_)) (V_v1 m c a b)
  match x with
  | ⟨0, _⟩ => show win0_5.index t (0 : Fin 2) * 1 + 1 * a.val = a.val; rw [e0]; omega
  | ⟨1, _⟩ => show win0_5.index t (1 : Fin 2) * 128 + 1 * b.val = b.val; rw [e1]; omega

/-- The first hidden layer's weights, staged whole. -/
theorem blk6 (c : Dev nD) (t : Fin cfg0.N) (a : Fin 256) (b : Fin 32) :
    (iblk m c 6 t : Vec Ideal S256x32 .f32) (ix2 a b) = (m ((c : Thread nD τ).loc main_arg6) : S256x32.Idx → EReal) (ix2 a b) := by
  obtain ⟨e0, e1⟩ := idx_whole6 t
  unfold iblk
  rw [View.read_apply]
  show V m c main_arg6 _ = _
  refine Eq.trans (congrArg _ (funext fun x => Fin.ext ?_)) (congrFun (V_main_arg6 m c) (ix2 a b))
  match x with
  | ⟨0, _⟩ => show win0_6.index t (0 : Fin 2) * 256 + 1 * a.val = a.val; rw [e0]; omega
  | ⟨1, _⟩ => show win0_6.index t (1 : Fin 2) * 32 + 1 * b.val = b.val; rw [e1]; omega

/-- The second bias row. -/
theorem blk7 (c : Dev nD) (t : Fin cfg0.N) (a : Fin 1) (b : Fin 32) :
    (iblk m c 7 t : Vec Ideal S1x32 .f32) (ix2 a b) = (m ((c : Thread nD τ).loc main_arg7) : S32.Idx → EReal) (ix1 b) := by
  obtain ⟨e0, e1⟩ := idx_whole7 t
  unfold iblk
  rw [View.read_apply]
  show V m c main_v2 _ = _
  refine Eq.trans (congrArg _ (funext fun x => Fin.ext ?_)) (V_v2 m c a b)
  match x with
  | ⟨0, _⟩ => show win0_7.index t (0 : Fin 2) * 1 + 1 * a.val = a.val; rw [e0]; omega
  | ⟨1, _⟩ => show win0_7.index t (1 : Fin 2) * 32 + 1 * b.val = b.val; rw [e1]; omega

/-- The second hidden layer's weights. -/
theorem blk8 (c : Dev nD) (t : Fin cfg0.N) (a : Fin 32) (b : Fin 32) :
    (iblk m c 8 t : Vec Ideal S32x32 .f32) (ix2 a b) = (m ((c : Thread nD τ).loc main_arg8) : S32x32.Idx → EReal) (ix2 a b) := by
  obtain ⟨e0, e1⟩ := idx_whole8 t
  unfold iblk
  rw [View.read_apply]
  show V m c main_arg8 _ = _
  refine Eq.trans (congrArg _ (funext fun x => Fin.ext ?_)) (congrFun (V_main_arg8 m c) (ix2 a b))
  match x with
  | ⟨0, _⟩ => show win0_8.index t (0 : Fin 2) * 32 + 1 * a.val = a.val; rw [e0]; omega
  | ⟨1, _⟩ => show win0_8.index t (1 : Fin 2) * 32 + 1 * b.val = b.val; rw [e1]; omega

/-- The third bias row. -/
theorem blk9 (c : Dev nD) (t : Fin cfg0.N) (a : Fin 1) (b : Fin 32) :
    (iblk m c 9 t : Vec Ideal S1x32 .f32) (ix2 a b) = (m ((c : Thread nD τ).loc main_arg9) : S32.Idx → EReal) (ix1 b) := by
  obtain ⟨e0, e1⟩ := idx_whole9 t
  unfold iblk
  rw [View.read_apply]
  show V m c main_v3 _ = _
  refine Eq.trans (congrArg _ (funext fun x => Fin.ext ?_)) (V_v3 m c a b)
  match x with
  | ⟨0, _⟩ => show win0_9.index t (0 : Fin 2) * 1 + 1 * a.val = a.val; rw [e0]; omega
  | ⟨1, _⟩ => show win0_9.index t (1 : Fin 2) * 32 + 1 * b.val = b.val; rw [e1]; omega

/-- The output layer's weights. -/
theorem blk10 (c : Dev nD) (t : Fin cfg0.N) (a : Fin 32) (b : Fin 1) :
    (iblk m c 10 t : Vec Ideal S32x1 .f32) (ix2 a b) = (m ((c : Thread nD τ).loc main_arg10) : S32x1.Idx → EReal) (ix2 a b) := by
  obtain ⟨e0, e1⟩ := idx_whole10 t
  unfold iblk
  rw [View.read_apply]
  show V m c main_arg10 _ = _
  refine Eq.trans (congrArg _ (funext fun x => Fin.ext ?_)) (congrFun (V_main_arg10 m c) (ix2 a b))
  match x with
  | ⟨0, _⟩ => show win0_10.index t (0 : Fin 2) * 32 + 1 * a.val = a.val; rw [e0]; omega
  | ⟨1, _⟩ => show win0_10.index t (1 : Fin 2) * 1 + 1 * b.val = b.val; rw [e1]; omega

/-- The output bias. -/
theorem blk11 (c : Dev nD) (t : Fin cfg0.N) (a : Fin 1) (b : Fin 1) :
    (iblk m c 11 t : Vec Ideal S1x1 .f32) (ix2 a b) = (m ((c : Thread nD τ).loc main_arg11) : S1.Idx → EReal) (ix1 b) := by
  obtain ⟨e0, e1⟩ := idx_whole11 t
  unfold iblk
  rw [View.read_apply]
  show V m c main_v4 _ = _
  refine Eq.trans (congrArg _ (funext fun x => Fin.ext ?_)) (V_v4 m c a b)
  match x with
  | ⟨0, _⟩ => show win0_11.index t (0 : Fin 2) * 1 + 1 * a.val = a.val; rw [e0]; omega
  | ⟨1, _⟩ => show win0_11.index t (1 : Fin 2) * 1 + 1 * b.val = b.val; rw [e1]; omega

/-- Row `p` of the result's block at point `t` is row `64 t + p` of the result array. -/
theorem emb12 (t : Fin cfg0.N) (p : Fin 64) :
    ((cfg0.win 12).blk t).view.emb (ix2 p (0 : Fin 1)) = (ix2 (row t p) (0 : Fin 1) : S4096x1.Idx) := by
  obtain ⟨e0, e1⟩ := idx_row12 t
  refine funext fun a => Fin.ext ?_
  match a with
  | ⟨0, _⟩ => show win0_12.index t (0 : Fin 2) * 64 + 1 * p.val = 64 * t.val + p.val; rw [e0]; omega
  | ⟨1, _⟩ => show win0_12.index t (1 : Fin 2) * 1 + 1 * 0 = 0; rw [e1]

/-! ## What a point writes back, the cover, the array -/

/-- WHAT POINT `t` WRITES BACK is block `t` of `G` of the arguments. -/
theorem flushed_eq (c : Dev nD) (t : Fin cfg0.N) :
    (dats m 0 c).flushed 12 t = ((cfg0.win 12).blk t).view.read (Elt Ideal) (Gm m c) := by
  rw [Value.flushed12]
  unfold out0_12
  rw [View.canon_unit_zero hz]
  simp only [View.ld_unit_zero (S := S64x41024) hz, View.ld_unit_zero (S := S41024x128) hz, View.ld_unit_zero (S := S1x128) hz,
    View.ld_unit_zero (S := S64x1) hz, View.ld_unit_zero (S := S256x32) hz, View.ld_unit_zero (S := S1x32) hz,
    View.ld_unit_zero (S := S32x32) hz, View.ld_unit_zero (S := S32x1) hz, View.ld_unit_zero (S := S1x1) hz]
  refine funext fun (y : S64x1.Idx) => ?_
  obtain ⟨p, z, rfl⟩ : ∃ (p : Fin 64) (z : Fin 1), y = ix2 p z := ⟨y 0, y 1, eq_ix2 y⟩
  obtain rfl : z = 0 := Subsingleton.elim _ _
  show k0_pay1 (F := Ideal) (k0_pay2 (F := Ideal) (iblk m c 0 t) (iblk m c 1 t) (iblk m c 4 t) (iblk m c 5 t) (iblk m c 2 t) (iblk m c 3 t)
      (iblk m c 6 t) (iblk m c 7 t)) (iblk m c 8 t) (iblk m c 9 t) (iblk m c 10 t) (iblk m c 11 t) (ix2 p (0 : Fin 1))
    = Gm m c (((cfg0.win 12).blk t).view.emb (ix2 p (0 : Fin 1)))
  refine (Kernel.body_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p).trans ?_
  rw [emb12]
  unfold Gm G
  simp only [blk0 m c t, blk1 m c t, blk2 m c t, blk3 m c t, blk4 m c t, blk5 m c t, blk6 m c t, blk7 m c t, blk8 m c t,
    blk9 m c t, blk10 m c t, blk11 m c t]

/-- An index of the result array is in point `t`'s block iff each coordinate is in the block's range on its axis. -/
theorem mem_blk (t : Fin cfg0.N) (i : S4096x1.Idx) :
    i ∈ ((cfg0.win 12).blk t).view.set ↔ ∀ a : Fin 2, win0_12.index t a * S64x1.size a ≤ (i a).val
      ∧ (i a).val < win0_12.index t a * S64x1.size a + S64x1.size a := by
  show i ∈ ((View.whole main_v5).slice (win0_12.rect t)).set ↔ _
  rw [View.set_slice_whole, Rect.mem_set_unit]
  exact Iff.rfl

/-- THE COVER: row `r` of the result lies in the block of point `r / 64`. -/
theorem cover (i : S4096x1.Idx) : ∃ t : Fin cfg0.N, (cfg0.win 12).flush t = true ∧ i ∈ ((cfg0.win 12).blk t).view.set := by
  have hN : cfg0.N = 64 := N_0
  have h0 : (i 0).val < 4096 := (i 0).isLt
  have h1 : (i 1).val < 1 := (i 1).isLt
  have ht : (i 0).val / 64 < cfg0.N := by rw [hN]; omega
  refine ⟨⟨(i 0).val / 64, ht⟩, flush0_12 _, ?_⟩
  obtain ⟨e0, e1⟩ := idx_row12 ⟨(i 0).val / 64, ht⟩
  rw [mem_blk]
  intro a
  match a with
  | ⟨0, _⟩ =>
    show win0_12.index ⟨(i 0).val / 64, ht⟩ (0 : Fin 2) * 64 ≤ (i 0).val
      ∧ (i 0).val < win0_12.index ⟨(i 0).val / 64, ht⟩ (0 : Fin 2) * 64 + 64
    rw [e0]
    show (i 0).val / 64 * 64 ≤ (i 0).val ∧ (i 0).val < (i 0).val / 64 * 64 + 64
    omega
  | ⟨1, _⟩ =>
    show win0_12.index ⟨(i 0).val / 64, ht⟩ (1 : Fin 2) * 1 ≤ (i 1).val
      ∧ (i 1).val < win0_12.index ⟨(i 0).val / 64, ht⟩ (1 : Fin 2) * 1 + 1
    rw [e1]
    omega

/-- THE ARRAY after the run is `G` of the arguments. -/
theorem final (c : Dev nD) : (dats m 0 c).arrAt 12 cfg0.N = Gm m c :=
  (dats m 0 c).arrAt_eq_of_cover 12 (Gm m c) (fun t _ => flushed_eq m c t) cover

/-- THE KERNEL'S RUN, READ: it terminates without a fault with the result array at `G` of the arguments and the arguments
    unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.Net.KernelValue

end
-- ==== Proof.lean ====
/-
  The kernel against its reference, on the extended reals.

  Both programs evaluate one small network on each of 4096 batch rows: a shared affine map takes each of the
  row's two 41024-entry input vectors to 128 accumulators; the two accumulator vectors, laid side by side in both
  orders and weighted by the row's two scalars, are added into 256 first-layer inputs; three affine layers
  256 → 32 → 32 → 1 follow, each taking its input clipped between the literal bounds 0 and 1
  (Proof/Spec.lean: `rowOut`, and `G` for the whole batch).

  The reference computes this with two whole-batch matrix products, concatenations along the columns and
  whole-batch layers; read at one result entry it is `rowOut` of that row (Proof/RefRow.lean).  The kernel works on
  64 rows at a time: it stacks the two 64-row input blocks, multiplies the stack once by the shared weights,
  and cuts the product back into its two halves; the halves, the mixing and the layers are the same row function
  (Proof/KernelRow.lean), each of the 64 grid points writes back its 64 rows, and the 64 blocks cover the result
  (Proof/KernelValue.lean).  The two sides differ only in how the same sums and the same entries are arranged —
  a stacked product cut in two against two products, weights applied before the concatenation against after it,
  a bias vector re-shaped against broadcast, a weight matrix re-typed entry by entry — and none of that changes a
  value on the extended reals: no algebraic law beyond reading each entry is used, and the precondition is never
  opened.  The idealization rewrote nothing, so `preserves` is trivial; each frame is its program's run with the
  result dropped.
-/
import proofs.«151213_j65841848648290_2_alg».proof.Defs
import proofs.«151213_j65841848648290_2_alg».proof.Proof.Gen.Kernel
import proofs.«151213_j65841848648290_2_alg».proof.Proof.Gen.Kernel.Frame
import proofs.«151213_j65841848648290_2_alg».proof.Proof.Gen.KernelIdeal
import proofs.«151213_j65841848648290_2_alg».proof.Proof.Gen.KernelIdeal.Frame
import proofs.«151213_j65841848648290_2_alg».proof.Proof.Gen.KernelIdeal.Value
import proofs.«151213_j65841848648290_2_alg».proof.Proof.Gen.ReferenceIdeal
import proofs.«151213_j65841848648290_2_alg».proof.Proof.Gen.ReferenceIdeal.Run
import proofs.«151213_j65841848648290_2_alg».proof.Proof.Gen.ReferenceIdeal.Read
import proofs.«151213_j65841848648290_2_alg».proof.Proof.Gen.Pre_finite_inputs
import proofs.«151213_j65841848648290_2_alg».proof.Proof.RefRow
import proofs.«151213_j65841848648290_2_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the twelve arguments both programs end with the result array at `G` of the arguments:
    the kernel by its 64 blocks, the reference stage by stage. -/
theorem algebraic : Cert.algebraic_KernelIdeal_ReferenceIdeal := by
  intro m ρ m' ρ' _ hagree
  refine ⟨fun c => Cert.Net.KernelValue.Gm m c, Cert.Net.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [h0, h1, h2, h3, h4, h5, h6, h7, h8, h9, h10, h11]
  exact (Cert.ReferenceIdeal.Read.val_main_v29_eq _ _ _ _ _ _ _ _ _ _ _ _).trans
    (Cert.Net.Ref.result_eq _ _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
